-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S8 : Shape := ⟨1, ![8]⟩
abbrev S4096x8 : Shape := ⟨2, ![4096, 8]⟩
abbrev S1024x4096 : Shape := ⟨2, ![1024, 4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S4x4096x1024 .f32) (main_arg1 : FVec F S8 .f32) (main_arg2 : FVec F S4096x8 .f32) (main_arg3 : FVec F S1024x4096 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Kernel.lean ====
abbrev S4x4096x1024 : Shape := ⟨3, ![4, 4096, 1024]⟩
abbrev S8 : Shape := ⟨1, ![8]⟩
abbrev S4096x8 : Shape := ⟨2, ![4096, 8]⟩
abbrev S1024x4096 : Shape := ⟨2, ![1024, 4096]⟩
abbrev S4x4096x8 : Shape := ⟨3, ![4, 4096, 8]⟩
abbrev S16384x8 : Shape := ⟨2, ![16384, 8]⟩
abbrev S1x8 : Shape := ⟨2, ![1, 8]⟩
abbrev S8x4096 : Shape := ⟨2, ![8, 4096]⟩
abbrev S4096x1024 : Shape := ⟨2, ![4096, 1024]⟩
abbrev S16384x1024 : Shape := ⟨2, ![16384, 1024]⟩
abbrev S512x8 : Shape := ⟨2, ![512, 8]⟩
abbrev S512x1024 : Shape := ⟨2, ![512, 1024]⟩
abbrev S512x4096 : Shape := ⟨2, ![512, 4096]⟩

abbrev nBuf : Space → Nat
  | .hbm => 14
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S4096x8, .f32⟩
  | .hbm, ⟨3, _⟩ => ⟨S1024x4096, .f32⟩
  | .hbm, ⟨4, _⟩ => ⟨S4x4096x8, .f32⟩
  | .hbm, ⟨5, _⟩ => ⟨S16384x8, .f32⟩
  | .hbm, ⟨6, _⟩ => ⟨S8, .f32⟩
  | .hbm, ⟨7, _⟩ => ⟨S1x8, .f32⟩
  | .hbm, ⟨8, _⟩ => ⟨S8x4096, .f32⟩
  | .hbm, ⟨9, _⟩ => ⟨S8x4096, .bf16⟩
  | .hbm, ⟨10, _⟩ => ⟨S4096x1024, .f32⟩
  | .hbm, ⟨11, _⟩ => ⟨S4096x1024, .bf16⟩
  | .hbm, ⟨12, _⟩ => ⟨S16384x1024, .f32⟩
  | .hbm, ⟨13, _⟩ => ⟨S4x4096x1024, .f32⟩
  | .local _ .vmem, ⟨0, _⟩ => ⟨S512x8, .f32⟩
  | .local _ .vmem, ⟨1, _⟩ => ⟨S512x8, .f32⟩
  | .local _ .vmem, ⟨2, _⟩ => ⟨S1x8, .f32⟩
  | .local _ .vmem, ⟨3, _⟩ => ⟨S8x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4x4096x1024_S4x4096x8_0_0_0 : S4x4096x1024.Slices ![0, 0, 0] S4x4096x8
  shapeCasts_S4x4096x8_S16384x8 : S4x4096x8.ShapeCasts S16384x8
  shapeCasts_S8_S1x8 : S8.ShapeCasts S1x8
  transposes_S4096x8_S8x4096_1_0 : S4096x8.Transposes [1, 0] S8x4096
  bitsLt_bf16_f32 : FTy.bits .bf16 < FTy.bits .f32
  transposes_S1024x4096_S4096x1024_1_0 : S1024x4096.Transposes [1, 0] S4096x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  shapeCasts_S16384x1024_S4x4096x1024 : S16384x1024.ShapeCasts S4x4096x1024
  dot_S512x8_S8x4096_S512x4096_1_0_0_1_n_n_wf : DotDims.WF S512x8 S8x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S16384x8.size a
  hwx0_0 : ∀ i : grid0.Coords, EltTy.bits .f32 = 32 ∨ (Rect.block (s := S16384x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .bf16 = 32 ∨ (Rect.block (s := S8x4096) S8x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)

variable [Facts₀]

def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v1) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S8 : Shape := ⟨1, ![8]⟩
abbrev S4096x8 : Shape := ⟨2, ![4096, 8]⟩
abbrev S1024x4096 : Shape := ⟨2, ![1024, 4096]⟩
abbrev S4x4096x8 : Shape := ⟨3, ![4, 4096, 8]⟩
abbrev S1x1x8 : Shape := ⟨3, ![1, 1, 8]⟩
abbrev S4x4096x4096 : Shape := ⟨3, ![4, 4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S4096x8, .f32⟩
  | .hbm, ⟨3, _⟩ => ⟨S1024x4096, .f32⟩
  | .hbm, ⟨4, _⟩ => ⟨S4x4096x8, .f32⟩
  | .hbm, ⟨5, _⟩ => ⟨S4x4096x8, .f32⟩
  | .hbm, ⟨6, _⟩ => ⟨S8, .f32⟩
  | .hbm, ⟨7, _⟩ => ⟨S1x1x8, .f32⟩
  | .hbm, ⟨8, _⟩ => ⟨S4x4096x8, .f32⟩
  | .hbm, ⟨9, _⟩ => ⟨S4x4096x8, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S4x4096x1024_S4x4096x8_0_0_0 : S4x4096x1024.Slices ![0, 0, 0] S4x4096x8
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  bcast_S_S4x4096x4096 : S_.BroadcastsInDim S4x4096x4096 (![] : Fin 0 → Fin S4x4096x4096.rank)
  dot_S4x4096x8_S4096x8_S4x4096x4096_2_1_01_0_n_n_wf : DotDims.WF S4x4096x8 S4096x8 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.Spec.lean ====
/-
  The function both programs compute, on the extended reals.

  A token (b, s) carries eight wire values  q k = cos x(b, s, k) · cos θ(k)  (only the first eight of the 1024
  features of x enter).  The hidden layer is  h f = max(Σ_k q k · w1(f, k), 0)  over 4096 units, and the output entry
  at feature e is  Σ_f h f · w2(e, f).  `entry` is that last number as a function of the token's wire values, of the
  first weight read as a(k, f) and of the second weight's one slice b(f); `out` reads it with the tokens on two axes
  and the weights as given, `rows` with the tokens numbered along one axis and the weights transposed.  No law of
  arithmetic relates the two: they are the same sums of the same products, indexed differently.
-/
import Idealize.ShloMosaic.PureOps.Ideal
import Idealize.ShloMosaic.Lib.ValueIdx

noncomputable section

open scoped BigOperators

namespace Cert.Spec

open Idealize.ShloMosaic Idealize.ShloMosaic.ValueIdx

/-- The number the f32 zero word denotes (the floor of the hidden layer). -/
abbrev zero : EReal := Ideal.ofBits .f32 0x00000000#32

/-- One output entry: `Σ_f max(Σ_k q k · a k f, 0) · b f`. -/
def entry (q : Fin 8 → EReal) (a : Fin 8 → Fin 4096 → EReal) (b : Fin 4096 → EReal) : EReal :=
  ∑ f : Fin 4096, max (∑ k : Fin 8, q k * a k f) zero * b f

/-- The result with the tokens on two axes: entry (b, s, e) from x(b, s, ·), θ, w1(f, k) and w2(e, f). -/
def out (x : (⟨3, ![4, 4096, 1024]⟩ : Shape).Idx → EReal) (θ : (⟨1, ![8]⟩ : Shape).Idx → EReal)
    (w1 : (⟨2, ![4096, 8]⟩ : Shape).Idx → EReal) (w2 : (⟨2, ![1024, 4096]⟩ : Shape).Idx → EReal) :
    (⟨3, ![4, 4096, 1024]⟩ : Shape).Idx → EReal := fun i =>
  entry (fun k => Ideal.cos (x (ix3 (i 0) (i 1) (Fin.castLE (by decide : 8 ≤ 1024) k))) * Ideal.cos (θ (ix1 k)))
    (fun k f => w1 (ix2 f k)) (fun f => w2 (ix2 (i 2) f))

/-- The result with the tokens along one axis: entry (r, e) from the token's eight features A(r, ·), the row of
    cosines ct(0, ·), and the weights stored transposed, W1(k, f) and W2(f, e). -/
def rows (A : (⟨2, ![16384, 8]⟩ : Shape).Idx → EReal) (ct : (⟨2, ![1, 8]⟩ : Shape).Idx → EReal)
    (W1 : (⟨2, ![8, 4096]⟩ : Shape).Idx → EReal) (W2 : (⟨2, ![4096, 1024]⟩ : Shape).Idx → EReal) :
    (⟨2, ![16384, 1024]⟩ : Shape).Idx → EReal := fun j =>
  entry (fun k => Ideal.cos (A (ix2 (j 0) k)) * ct (ix2 (0 : Fin 1) k)) (fun k f => W1 (ix2 k f)) (fun f => W2 (ix2 f (j 1)))

end Cert.Spec

end
-- ==== Proof.RefIsSpec.lean ====
/-
  The reference computes `Spec.out`.

  Its last operation contracts the hidden layer with w2 over the 4096 units; the hidden layer is the maximum with
  zero of the contraction of the wire values with w1 over the eight wires; a wire value is the product of the cosine of
  a sliced feature of x and the cosine of θ broadcast over the tokens.  Read at an index, each operation names the
  operand's index by coordinates, and those are the coordinates `Spec.out` reads.
-/
import proofs.«163803_j65481071402935_2_alg».proof.Proof.Gen.ReferenceIdeal.Read
import proofs.«163803_j65481071402935_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result, index by index, is `Spec.out` of its four arguments. -/
theorem reference_eq_out (x : FVec Ideal S4x4096x1024 .f32) (θ : FVec Ideal S8 .f32) (w1 : FVec Ideal S4096x8 .f32)
    (w2 : FVec Ideal S1024x4096 .f32) :
    val_main_v8 (F := Ideal) x θ w1 w2 = Cert.Spec.out x θ w1 w2 := by
  funext i
  rw [val_main_v8_apply]
  unfold Cert.Spec.out Cert.Spec.entry
  refine Finset.sum_congr rfl fun f _ => ?_
  have er : ridx_main_v8 i f = ix2 (i 2) f :=
    funext fun a => Fin.ext (by match a with | ⟨0, _⟩ => rfl | ⟨1, _⟩ => rfl)
  rw [er, val_main_v7_apply, val_main_v6_apply, val_main_call0_v0_apply, val_main_call0_cst_apply]
  refine congrArg (· * w2 (ix2 (i 2) f)) ?_
  show max _ _ = max _ _
  refine congrArg (max · _) ?_
  refine Finset.sum_congr rfl fun k _ => ?_
  have e0 : idx_main_v0 (lidx_main_v6 (lidx_main_v8 i f) k) = ix3 (i 0) (i 1) (Fin.castLE (by decide : 8 ≤ 1024) k) :=
    funext fun a => Fin.ext (by match a with | ⟨0, _⟩ => rfl | ⟨1, _⟩ => rfl | ⟨2, _⟩ => rfl)
  have e1 : idx_main_v3 (idx_main_v4 (lidx_main_v6 (lidx_main_v8 i f) k)) = ix1 k :=
    funext fun a => Fin.ext (by match a with | ⟨0, _⟩ => rfl)
  have e2 : ridx_main_v6 (lidx_main_v8 i f) k = ix2 f k :=
    funext fun a => Fin.ext (by match a with | ⟨0, _⟩ => rfl | ⟨1, _⟩ => rfl)
  rw [val_main_v5_apply, val_main_v1_apply, val_main_v0_apply, val_main_v4_apply, val_main_v3_apply, val_main_v2_apply,
    e0, e1, e2]
  rfl

end Cert.ReferenceIdeal.RefValue

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.Payload.lean ====
/-
  What the kernel body stores, entry by entry.

  The body takes a block of 512 tokens' eight features, the row of cosines, and the two weights stored transposed.
  It multiplies the features' cosines by the row broadcast down the block, contracts the product with the first
  weight over the eight wires into the zero matrix, takes the maximum with zero, and contracts that with the second
  weight over the 4096 hidden units into the zero matrix.  Changes of float format are the identity on exact values
  and both contractions are plain matrix products, so the (p, q) entry is `Spec.entry` of token p's wire values, the
  first weight, and column q of the second.
-/
import proofs.«163803_j65481071402935_2_alg».proof.Proof.Gen.KernelIdeal.Skeleton
import proofs.«163803_j65481071402935_2_alg».proof.Proof.LibPlainMatmul
import proofs.«163803_j65481071402935_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The first contraction is the plain product of a 512×8 by an 8×4096 matrix. -/
theorem dot1_plain : dot_S512x8_S8x4096_S512x4096_1_0_0_1_n_n = DotDims.plain 512 8 4096 := rfl
/-- The second contraction is the plain product of a 512×4096 by a 4096×1024 matrix. -/
theorem dot2_plain : dot_S512x4096_S4096x1024_S512x1024_1_0_0_1_n_n = DotDims.plain 512 4096 1024 := rfl

/-- The stored block at (p, q): `Σ_f max(Σ_k cos(v0(p,k)) · v2(0,k) · v8(k,f), 0) · v10(f,q)`. -/
theorem payload_apply (v0 : Vec Ideal S512x8 .f32) (v2 : Vec Ideal S1x8 .f32) (v8 : Vec Ideal S8x4096 .bf16)
    (v10 : Vec Ideal S4096x1024 .bf16) (p : Fin 512) (q : Fin 1024) :
    k0_pay1 (F := Ideal) v0 v2 v8 v10 (ix2 p q)
      = Cert.Spec.entry (fun k => Ideal.cos (v0 (ix2 p k)) * v2 (ix2 (0 : Fin 1) k)) (fun k f => v8 (ix2 k f))
          (fun f => v10 (ix2 f q)) := by
  unfold k0_pay1 Cert.Spec.entry
  simp only [shapeCast_self, dot1_plain, dot2_plain]
  rw [matmul_plain_zero_apply]
  refine Finset.sum_congr rfl fun f _ => ?_
  rw [truncf_apply, maximumf_apply, matmul_plain_zero_apply, broadcast_apply]
  refine congrArg (· * v10 (ix2 f q)) ?_
  refine congrArg (max · _) ?_
  refine Finset.sum_congr rfl fun k _ => ?_
  rw [truncf_apply, mulf_apply, broadcastTo_1b_ab_apply]
  rfl

end Cert.KernelIdeal.Body

end
-- ==== Proof.Blocks.lean ====
/-
  From the blocks to the array the region leaves.

  Grid point t works on tokens 512·t … 512·t + 511: its first operand's block is those rows of the [16384, 8] array of
  features, the other three operands are fetched whole at every point, and its result block is those rows of the
  [16384, 1024] result.  What the point writes back is therefore the block of ONE function of the arrays as the region
  finds them, `Spec.rows`; the 32 blocks tile the result's rows, so after the region the array is that function.
-/
import proofs.«163803_j65481071402935_2_alg».proof.Proof.Gen.KernelIdeal.Frame
import proofs.«163803_j65481071402935_2_alg».proof.Proof.Payload
import Idealize.ShloMosaic.Lib.Pipeline.Value
import Idealize.ShloMosaic.Lib.Tactic

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- The block indices at point t: the features' and the result's blocks are block t of their rows, everything else
    is block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The result as a function of the arrays the region finds: the reshaped features, the row of cosines, and the two
    transposed weights. -/
abbrev regionRows (c : Dev nD) : Buf (Elt Ideal) ((c : Thread nD τ).loc main_v8) :=
  Cert.Spec.rows (V m c main_v1) (V m c main_v3) (V m c main_v5) (V m c main_v7)

/-- What point t writes back is block t of `regionRows`. -/
theorem flushed_eq (c : Dev nD) (t : Fin cfg0.N) :
    (dats m 0 c).flushed 4 t = ((cfg0.win 4).blk t).view.read (Elt Ideal) (regionRows m c) := by
  show (cfg0.win 4).cut (grid0.coords t) ((dats m 0 c).after 4 t) = _
  rw [after0_4]
  unfold out0_4
  rw [View.canon_unit_zero offsets_zero]
  simp only [View.ld_unit_zero (S := S512x8) offsets_zero, View.ld_unit_zero (S := S1x8) offsets_zero,
    View.ld_unit_zero (S := S8x4096) offsets_zero, View.ld_unit_zero (S := S4096x1024) offsets_zero]
  obtain ⟨e00, e01, e10, e11, e20, e21, e30, e31, e40, e41⟩ := block_indices t
  funext j
  obtain ⟨p, q, rfl⟩ : ∃ (p : Fin 512) (q : Fin 1024), j = ix2 p q := ⟨j 0, j 1, eq_ix2 j⟩
  show k0_pay1 (iblk m c 0 t) (iblk m c 1 t) (iblk m c 2 t) (iblk m c 3 t) (ix2 p q)
    = Cert.Spec.rows (V m c main_v1) (V m c main_v3) (V m c main_v5) (V m c main_v7) (((cfg0.win 4).blk t).view.emb (ix2 p q))
  refine (Body.payload_apply _ _ _ _ p q).trans ?_
  unfold Cert.Spec.rows
  have h0 : ∀ k : Fin 8, iblk m c 0 t (ix2 p k) = V m c main_v1 (ix2 ((((cfg0.win 4).blk t).view.emb (ix2 p q)) 0) k) := fun k => by
    show V m c main_v1 (((cfg0.win 0).blk t).view.emb (ix2 p k)) = _
    refine congrArg (V m c main_v1) (funext fun a => Fin.ext ?_)
    match a with
    | ⟨0, _⟩ => show win0_0.index t (0 : Fin 2) * 512 + 1 * p.val = win0_4.index t (0 : Fin 2) * 512 + 1 * p.val; omega
    | ⟨1, _⟩ => show win0_0.index t (1 : Fin 2) * 8 + 1 * k.val = k.val; omega
  have h1 : ∀ k : Fin 8, iblk m c 1 t (ix2 (0 : Fin 1) k) = V m c main_v3 (ix2 (0 : Fin 1) k) := fun k => by
    show V m c main_v3 (((cfg0.win 1).blk t).view.emb (ix2 (0 : Fin 1) k)) = _
    refine congrArg (V m c main_v3) (funext fun a => Fin.ext ?_)
    match a with
    | ⟨0, _⟩ => show win0_1.index t (0 : Fin 2) * 1 + 1 * 0 = 0; omega
    | ⟨1, _⟩ => show win0_1.index t (1 : Fin 2) * 8 + 1 * k.val = k.val; omega
  have h2 : ∀ (k : Fin 8) (f : Fin 4096), iblk m c 2 t (ix2 k f) = V m c main_v5 (ix2 k f) := fun k f => by
    show V m c main_v5 (((cfg0.win 2).blk t).view.emb (ix2 k f)) = _
    refine congrArg (V m c main_v5) (funext fun a => Fin.ext ?_)
    match a with
    | ⟨0, _⟩ => show win0_2.index t (0 : Fin 2) * 8 + 1 * k.val = k.val; omega
    | ⟨1, _⟩ => show win0_2.index t (1 : Fin 2) * 4096 + 1 * f.val = f.val; omega
  have h3 : ∀ f : Fin 4096, iblk m c 3 t (ix2 f q) = V m c main_v7 (ix2 f ((((cfg0.win 4).blk t).view.emb (ix2 p q)) 1)) := fun f => by
    show V m c main_v7 (((cfg0.win 3).blk t).view.emb (ix2 f q)) = _
    refine congrArg (V m c main_v7) (funext fun a => Fin.ext ?_)
    match a with
    | ⟨0, _⟩ => show win0_3.index t (0 : Fin 2) * 4096 + 1 * f.val = f.val; omega
    | ⟨1, _⟩ => show win0_3.index t (1 : Fin 2) * 1024 + 1 * q.val = win0_4.index t (1 : Fin 2) * 1024 + 1 * q.val; omega
  exact congr (congr (congrArg Cert.Spec.entry (funext fun k => by rw [h0 k, h1 k])) (funext fun k => funext fun f => h2 k f))
    (funext fun f => h3 f)

/-- An index of the result is in point t's block iff each coordinate is in the block's range on its axis. -/
theorem mem_block (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v8).slice (win0_4.rect t)).set ↔ _
  rw [View.set_slice_whole, Rect.mem_set_unit]
  exact Iff.rfl

/-- Row r of the result is in the block of point r / 512, and every point writes its block back. -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 32 := N_0
  have ht : (i 0).val / 512 < cfg0.N := by rw [hN]; omega
  obtain ⟨-, -, -, -, -, -, -, -, e40, e41⟩ := block_indices ⟨(i 0).val / 512, ht⟩
  refine ⟨⟨(i 0).val / 512, ht⟩, flush0_4 _, ?_⟩
  rw [mem_block]
  intro a
  match a with
  | ⟨0, _⟩ =>
    show win0_4.index ⟨(i 0).val / 512, ht⟩ (0 : Fin 2) * 512 ≤ (i 0).val
      ∧ (i 0).val < win0_4.index ⟨(i 0).val / 512, ht⟩ (0 : Fin 2) * 512 + 512
    rw [e40]; show (i 0).val / 512 * 512 ≤ (i 0).val ∧ (i 0).val < (i 0).val / 512 * 512 + 512; omega
  | ⟨1, _⟩ =>
    show win0_4.index ⟨(i 0).val / 512, ht⟩ (1 : Fin 2) * 1024 ≤ (i 1).val
      ∧ (i 1).val < win0_4.index ⟨(i 0).val / 512, ht⟩ (1 : Fin 2) * 1024 + 1024
    rw [e41]; omega

/-- After the region the result array is `regionRows`. -/
theorem region_result (c : Dev nD) : (dats m 0 c).arrAt 4 cfg0.N = regionRows m c :=
  (dats m 0 c).arrAt_eq_of_cover 4 (regionRows m c) (fun t _ => flushed_eq m c t) covered

end Cert.KernelIdeal.Blocks

end
-- ==== Proof.LibLayout.lean ====
import Idealize.ShloMosaic.Lib.Pipeline.Value
import Idealize.ShloMosaic.Lib.ValueIdx
import Idealize.ShloMosaic.Lib.ValueLayout

/-! # Shape casts and broadcasts read at an index, by coordinates

A shape cast reads the operand at the index with the same row-major position; a broadcast reads it at the same
coordinates, `0` on the operand's unit axes. Each statement names both indices by their coordinates, at any extents:
casts that add unit axes, casts that merge the leading axes into one or split one into several, and broadcasts along
unit axes. -/

namespace Cert.LibLayout

open Idealize.ShloMosaic Idealize.ShloMosaic.ValueIdx
variable {α : Type}

/-! ## Unit axes added by a shape cast -/

/-- An `[a, b, c]` array cast to `[a, 1, b, c]`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu]; simp only [Nat.mul_one, Nat.add_zero, Nat.zero_mul, Nat.zero_add])

/-- An `[a, b]` array cast to `[1, 1, a, b]`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp only [Nat.mul_one, Nat.add_zero, Nat.zero_mul, Nat.zero_add])

/-- An `[a]` array cast to `[1, 1, 1, a]`. -/
theorem shapeCast_a_111a_apply {a : ℕ} (x : (⟨1, ![a]⟩ : Shape).Idx → α)
    (h : (⟨1, ![a]⟩ : Shape).ShapeCasts ⟨4, ![1, 1, 1, a]⟩) (u v w : Fin 1) (i : Fin a) :
    shapeCast ⟨4, ![1, 1, 1, a]⟩ x h (ix4 u v w i) = x (ix1 i) :=
  shapeCast_apply x h _ _ (by
    have hu : u.val = 0 := by omega
    have hv : v.val = 0 := by omega
    have hw : w.val = 0 := by omega
    rw [Shape.rowMajor_val_one, Shape.rowMajor_val_four]
    show i.val = ((u.val * 1 + v.val) * 1 + w.val) * a + i.val
    rw [hu, hv, hw]; simp only [Nat.mul_one, Nat.add_zero, Nat.zero_mul, Nat.zero_add])

/-- An `[a]` array cast to `[1, 1, a]`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]; simp only [Nat.mul_one, Nat.add_zero, Nat.zero_mul, Nat.zero_add])

/-- An `[a, b, c]` array cast to `[a, b, c, 1]`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu]; simp only [Nat.mul_one, Nat.add_zero, Nat.zero_mul, Nat.zero_add])

/-- An `[a, b]` array cast to `[a, 1, b]`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu]; simp only [Nat.mul_one, Nat.add_zero, Nat.zero_mul, Nat.zero_add])

/-- An `[a, b]` array cast to `[a, b, 1]`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu]; simp only [Nat.mul_one, Nat.add_zero, Nat.zero_mul, Nat.zero_add])

/-! ## Leading axes merged into one, or one split into several -/

/-- An `[a, b, c, d]` array cast to `[n, d]` (the three leading axes merged): row `r` is the leading coordinates' row-major position. -/
theorem shapeCast_abcd_nd_apply {a b c d n : ℕ} (x : (⟨4, ![a, b, c, d]⟩ : Shape).Idx → α)
    (h : (⟨4, ![a, b, c, d]⟩ : Shape).ShapeCasts ⟨2, ![n, d]⟩) (i : Fin a) (j : Fin b) (k : Fin c) (l : Fin d) (r : Fin n) (hr : r.val = (i.val * b + j.val) * c + k.val) :
    shapeCast ⟨2, ![n, d]⟩ x h (ix2 r l) = x (ix4 i j k l) :=
  shapeCast_apply x h _ _ (by
    rw [Shape.rowMajor_val_four, Shape.rowMajor_val_two]
    show ((i.val * b + j.val) * c + k.val) * d + l.val = r.val * d + l.val
    rw [hr])

/-- An `[n, d]` array cast to `[a, b, c, d]` (the leading axis split in three). -/
theorem shapeCast_nd_abcd_apply {a b c d n : ℕ} (x : (⟨2, ![n, d]⟩ : Shape).Idx → α)
    (h : (⟨2, ![n, d]⟩ : Shape).ShapeCasts ⟨4, ![a, b, c, d]⟩) (i : Fin a) (j : Fin b) (k : Fin c) (l : Fin d) (r : Fin n) (hr : r.val = (i.val * b + j.val) * c + k.val) :
    shapeCast ⟨4, ![a, b, c, d]⟩ x h (ix4 i j k l) = x (ix2 r l) :=
  shapeCast_apply x h _ _ (by
    rw [Shape.rowMajor_val_two, Shape.rowMajor_val_four]
    show r.val * d + l.val = ((i.val * b + j.val) * c + k.val) * d + l.val
    rw [hr])

/-- An `[a, b, c]` array cast to `[n, c]` (the two leading axes merged). -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n) (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` (the leading axis split in two). -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-! ## Broadcasts along unit axes -/

/-- An `[a, 1, c, d]` array broadcast to `[a, b, c, d]`. -/
theorem broadcastTo_a1cd_abcd_apply {a b c d : ℕ} (x : (⟨4, ![a, 1, c, d]⟩ : Shape).Idx → α)
    (h : (⟨4, ![a, 1, c, d]⟩ : Shape).Broadcasts ⟨4, ![a, b, c, d]⟩) (i : Fin a) (j : Fin b) (k : Fin c) (l : Fin d) :
    broadcastTo ⟨4, ![a, b, c, d]⟩ x h (ix4 i j k l) = x (ix4 i (0 : Fin 1) k l) := by
  refine broadcastTo_apply x h (ix4 i j k l) (ix4 i (0 : Fin 1) k l) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, b, c, d]` array broadcast to `[a, b, c, d]`. -/
theorem broadcastTo_1bcd_abcd_apply {a b c d : ℕ} (x : (⟨4, ![1, b, c, d]⟩ : Shape).Idx → α)
    (h : (⟨4, ![1, b, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) j k l) := by
  refine broadcastTo_apply x h (ix4 i j k l) (ix4 (0 : Fin 1) j k l) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, c, d]` array broadcast to `[a, b, c, d]`. -/
theorem broadcastTo_11cd_abcd_apply {a b c d : ℕ} (x : (⟨4, ![1, 1, c, d]⟩ : Shape).Idx → α)
    (h : (⟨4, ![1, 1, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) k l) := by
  refine broadcastTo_apply x h (ix4 i j k l) (ix4 (0 : Fin 1) (0 : Fin 1) k l) fun ax => ?_
  match ax with
  | ⟨0, _⟩ => rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, 1, d]` array broadcast to `[a, b, c, d]`. -/
theorem broadcastTo_111d_abcd_apply {a b c d : ℕ} (x : (⟨4, ![1, 1, 1, d]⟩ : Shape).Idx → α)
    (h : (⟨4, ![1, 1, 1, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) (0 : Fin 1) l) := by
  refine broadcastTo_apply x h (ix4 i j k l) (ix4 (0 : Fin 1) (0 : Fin 1) (0 : Fin 1) l) fun ax => ?_
  match ax with
  | ⟨0, _⟩ => rfl
  | ⟨1, _⟩ => rfl
  | ⟨2, _⟩ => rfl
  | ⟨3, _⟩ =>
    show l.val = if d = 1 then 0 else l.val
    split
    · have := l.isLt; omega
    · rfl

/-- An `[a, b, c, 1]` array broadcast to `[a, b, c, d]`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1, c]` array broadcast to `[a, b, c]`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibLayout
-- ==== Proof.HostSide.lean ====
/-
  Around the region: what the host lines before it hand the kernel, and what the line after it makes of the result.

  Before the region the program slices the first eight features off x and numbers the 4 × 4096 tokens along one axis
  (token (b, s) is row 4096·b + s), takes the cosines of θ as a one-row matrix, and transposes both weights (the change
  of float format that follows is the identity on exact values).  After the region it splits the 16384 rows of the
  result back into the two token axes.  Read through those index changes, `Spec.rows` of what the region finds is
  `Spec.out` of the four arguments: row 4096·b + s of the features is x(b, s, ·), the transposed weights read at
  (k, f) and (f, e) are w1(f, k) and w2(e, f).
-/
import proofs.«163803_j65481071402935_2_alg».proof.Proof.Blocks
import proofs.«163803_j65481071402935_2_alg».proof.Proof.LibLayout
import Idealize.ShloMosaic.Lib.StableHlo.Run
import Idealize.ShloMosaic.Lib.ValueLayout

set_option maxRecDepth 16384

noncomputable section

open scoped BigOperators

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

/-! ## The index changes, on any four arrays -/

/-- `Spec.rows` of the sliced and renumbered features, the one-row cosines and the transposed weights, with its rows
    split back into the two token axes, is `Spec.out`. -/
theorem rows_of_prepared_eq_out (x : FVec Ideal S4x4096x1024 .f32) (θ : FVec Ideal S8 .f32) (w1 : FVec Ideal S4096x8 .f32)
    (w2 : FVec Ideal S1024x4096 .f32) :
    shapeCast S4x4096x1024
        (Cert.Spec.rows
          (shapeCast S16384x8 (extractStridedSlice S4x4096x8 ![0, 0, 0] x slices_S4x4096x1024_S4x4096x8_0_0_0)
            shapeCasts_S4x4096x8_S16384x8)
          (shapeCast S1x8 (Host.cos θ) shapeCasts_S8_S1x8)
          (truncf .bf16 (transpose S8x4096 [1, 0] w1 transposes_S4096x8_S8x4096_1_0) bitsLt_bf16_f32)
          (truncf .bf16 (transpose S4096x1024 [1, 0] w2 transposes_S1024x4096_S4096x1024_1_0) bitsLt_bf16_f32))
        shapeCasts_S16384x1024_S4x4096x1024
      = Cert.Spec.out x θ w1 w2 := by
  funext i
  obtain ⟨b, s, e, rfl⟩ : ∃ (b : Fin 4) (s : Fin 4096) (e : Fin 1024), i = ix3 b s e := ⟨i 0, i 1, i 2, eq_ix3 i⟩
  have hr : b.val * 4096 + s.val < 16384 := by have := b.isLt; have := s.isLt; omega
  rw [Cert.LibLayout.shapeCast_nc_abc_apply _ _ b s e ⟨b.val * 4096 + s.val, hr⟩ rfl]
  unfold Cert.Spec.rows Cert.Spec.out
  refine congr (congr (congrArg Cert.Spec.entry (funext fun k => ?_)) (funext fun k => funext fun f => ?_)) (funext fun f => ?_)
  · show Ideal.cos (shapeCast S16384x8 _ _ (ix2 (⟨b.val * 4096 + s.val, hr⟩ : Fin 16384) k)) * shapeCast S1x8 (Host.cos θ) _ (ix2 (0 : Fin 1) k)
      = Ideal.cos (x (ix3 b s (Fin.castLE (by decide : 8 ≤ 1024) k))) * Ideal.cos (θ (ix1 k))
    rw [Cert.LibLayout.shapeCast_abc_nc_apply _ _ b s k ⟨b.val * 4096 + s.val, hr⟩ rfl, shapeCast_a_1a_apply,
      extractStridedSlice_apply ![0, 0, 0] x slices_S4x4096x1024_S4x4096x8_0_0_0 (ix3 b s k)
        (ix3 b s (Fin.castLE (by decide : 8 ≤ 1024) k)) (fun a => match a with
          | ⟨0, _⟩ => by show b.val = 0 + b.val; omega
          | ⟨1, _⟩ => by show s.val = 0 + s.val; omega
          | ⟨2, _⟩ => by show k.val = 0 + k.val; omega)]
    rfl
  · show (truncf .bf16 (transpose S8x4096 [1, 0] w1 transposes_S4096x8_S8x4096_1_0) bitsLt_bf16_f32 : FVec Ideal S8x4096 .bf16) (ix2 k f) = w1 (ix2 f k)
    rw [truncf_apply, transpose_ix2_apply]
  · show (truncf .bf16 (transpose S4096x1024 [1, 0] w2 transposes_S1024x4096_S4096x1024_1_0) bitsLt_bf16_f32 : FVec Ideal S4096x1024 .bf16) (ix2 f e) = w2 (ix2 e f)
    rw [truncf_apply, transpose_ix2_apply]

/-! ## The program's host lines -/

variable (m : (ℓ : Loc nD τ sig) → Buf (Elt Ideal) ℓ)

/-- The region finds the first eight features of x with the tokens along one axis, -/
theorem found_features (c : Dev nD) : (V m c main_v1 : S16384x8.Idx → EReal)
    = shapeCast S16384x8 (extractStridedSlice S4x4096x8 ![0, 0, 0] (m ((c : Thread nD τ).loc main_arg0)) slices_S4x4096x1024_S4x4096x8_0_0_0)
        shapeCasts_S4x4096x8_S16384x8 := by
  show StableHlo.after hostOps0 (fun b => m (c, b)) (Proc.devRef .tc main_v1) = _
  after_results <;> rfl

/-- the cosines of θ as one row, -/
theorem found_cosines (c : Dev nD) : (V m c main_v3 : S1x8.Idx → EReal)
    = (shapeCast S1x8 (Host.cos (F := Ideal) (s := S8) (φ := .f32) (m ((c : Thread nD τ).loc main_arg1))) shapeCasts_S8_S1x8 : S1x8.Idx → EReal) := by
  show StableHlo.after hostOps0 (fun b => m (c, b)) (Proc.devRef .tc main_v3) = _
  after_results <;> rfl

/-- the first weight transposed, -/
theorem found_w1 (c : Dev nD) : (V m c main_v5 : S8x4096.Idx → EReal)
    = (truncf (F := Ideal) .bf16 (transpose S8x4096 [1, 0] (m ((c : Thread nD τ).loc main_arg2) : FVec Ideal S4096x8 .f32) transposes_S4096x8_S8x4096_1_0) bitsLt_bf16_f32 : S8x4096.Idx → EReal) := by
  show StableHlo.after hostOps0 (fun b => m (c, b)) (Proc.devRef .tc main_v5) = _
  after_results <;> rfl

/-- and the second weight transposed. -/
theorem found_w2 (c : Dev nD) : (V m c main_v7 : S4096x1024.Idx → EReal)
    = (truncf (F := Ideal) .bf16 (transpose S4096x1024 [1, 0] (m ((c : Thread nD τ).loc main_arg3) : FVec Ideal S1024x4096 .f32) transposes_S1024x4096_S4096x1024_1_0) bitsLt_bf16_f32 : S4096x1024.Idx → EReal) := by
  show StableHlo.after hostOps0 (fun b => m (c, b)) (Proc.devRef .tc main_v7) = _
  after_results <;> rfl

/-- The program's result, after the line that follows the region, is `Spec.out` of the four arguments. -/
theorem result_eq_out (c : Dev nD) :
    (Pipeline.afterTail₀ cfgs (dats m) 0 (V0 m) [hostOps1] c main_v9 : S4x4096x1024.Idx → EReal)
      = Cert.Spec.out (m ((c : Thread nD τ).loc main_arg0)) (m ((c : Thread nD τ).loc main_arg1))
          (m ((c : Thread nD τ).loc main_arg2)) (m ((c : Thread nD τ).loc main_arg3)) := by
  have tail : (Pipeline.afterTail₀ cfgs (dats m) 0 (V0 m) [hostOps1] c main_v9 : S4x4096x1024.Idx → EReal)
      = shapeCast S4x4096x1024
          (Pipeline.withArrays (cfgs 0).spec c (V0 m c) (fun w => (dats m 0 c).arrAt w (cfgs 0).N) (Proc.devRef .tc main_v8))
          shapeCasts_S16384x1024_S4x4096x1024 := by
    unfold Pipeline.afterTail₀
    show StableHlo.after hostOps1 _ (Proc.devRef .tc main_v9) = _
    after_results <;> rfl
  have region : Pipeline.withArrays (cfgs 0).spec c (V0 m c) (fun w => (dats m 0 c).arrAt w (cfgs 0).N) (Proc.devRef .tc main_v8)
      = Cert.Spec.rows (V m c main_v1) (V m c main_v3) (V m c main_v5) (V m c main_v7) :=
    (Pipeline.withArrays_arr spec0 launch0.win.arr_inj c _ _ 4).trans (Blocks.region_result m c)
  rw [tail, region, found_features, found_cosines, found_w1, found_w2]
  exact rows_of_prepared_eq_out _ _ _ _

end Cert.KernelIdeal.HostSide

end
-- ==== Proof.KernelRun.lean ====
/-
  The kernel program's run, with its result named.

  Every weakly fair execution of the whole program ends; the result buffer then holds `Spec.out` of the four
  arguments (the region's array is `Spec.rows` of what the region finds, and the host lines around it are the index
  changes between the two), and the arguments are as they were.
-/
import proofs.«163803_j65481071402935_2_alg».proof.Proof.HostSide

noncomputable section

namespace Cert.KernelIdeal.KernelRun

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The program ends with its result at `Spec.out` of the arguments and the arguments unchanged. -/
theorem run : θ_run defs (onTc (τ := τ) (main (F := Ideal))) ⟨m, fun _ => 0, ρ⟩ fun r => ∀ c : Dev nD,
      r.2.mem ((c.tc : Thread nD τ).loc main_v9)
        = Cert.Spec.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (HostSide.result_eq_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.lean ====
/-
  A per-token two-layer network on eight circuit expectation values, tiled over the tokens, against its plain
  statement.

  For a token (b, s) the eight wire values are  q k = cos x(b, s, k) · cos θ(k);  the hidden layer is
  h f = max(Σ_k q k · w1(f, k), 0)  and the output is  out(b, s, e) = Σ_f h f · w2(e, f)  (Spec.lean).

  The reference computes exactly this, with the tokens on two axes (RefIsSpec.lean, over the reference's run read one
  operation at a time).  The kernel program slices the eight features, numbers the tokens along one axis, transposes
  the weights, and launches 32 grid points of 512 tokens each; a point's body is the same two contractions and the same
  maximum on its block (Payload.lean), the 32 blocks tile the result (Blocks.lean), and the host lines around the region
  are index changes only (HostSide.lean).  On exact values a change of float format is the identity and a contraction
  into the zero matrix is the plain sum of products, so the two programs compute the same sums of the same products:
  no law of arithmetic beyond reading both at an index is used, and the inputs' finiteness is never needed.

  The three frames are the generated ones (the reference's is its generated run with the result dropped), and the
  idealization rewrote nothing, so its statement is `True`.
-/
import proofs.«163803_j65481071402935_2_alg».proof.Defs
import proofs.«163803_j65481071402935_2_alg».proof.Proof.Gen.Kernel
import proofs.«163803_j65481071402935_2_alg».proof.Proof.Gen.Kernel.Skeleton
import proofs.«163803_j65481071402935_2_alg».proof.Proof.Gen.Kernel.Launch
import proofs.«163803_j65481071402935_2_alg».proof.Proof.Gen.Kernel.Points
import proofs.«163803_j65481071402935_2_alg».proof.Proof.Gen.Kernel.Frame
import proofs.«163803_j65481071402935_2_alg».proof.Proof.Gen.KernelIdeal
import proofs.«163803_j65481071402935_2_alg».proof.Proof.Gen.KernelIdeal.Skeleton
import proofs.«163803_j65481071402935_2_alg».proof.Proof.Gen.KernelIdeal.Launch
import proofs.«163803_j65481071402935_2_alg».proof.Proof.Gen.KernelIdeal.Points
import proofs.«163803_j65481071402935_2_alg».proof.Proof.Gen.KernelIdeal.Frame
import proofs.«163803_j65481071402935_2_alg».proof.Proof.Gen.ReferenceIdeal
import proofs.«163803_j65481071402935_2_alg».proof.Proof.Gen.ReferenceIdeal.Run
import proofs.«163803_j65481071402935_2_alg».proof.Proof.Gen.ReferenceIdeal.Read
import proofs.«163803_j65481071402935_2_alg».proof.Proof.Gen.Pre_finite_inputs
import proofs.«163803_j65481071402935_2_alg».proof.Proof.RefIsSpec
import proofs.«163803_j65481071402935_2_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program on exact values. -/
theorem frame_kernel_ideal : Cert.frame_KernelIdeal := fun m ρ _ => Cert.KernelIdeal.Gen.frame m ρ

/-- The reference runs and keeps its arguments: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel program was read on exact values. -/
theorem preserves : Cert.preserves_Kernel_KernelIdeal := trivial

/-- From memories that agree on the arguments both programs end with the result at `Spec.out` of those arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq_out,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
